-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x512 : Shape := ⟨2, ![1024, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S32768x512 .f32) (main_arg1 : FVec F S1024x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S32768x512 : Shape := ⟨2, ![32768, 512]⟩
abbrev S1024x512 : Shape := ⟨2, ![1024, 512]⟩
abbrev S32768x1024 : Shape := ⟨2, ![32768, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S32768x512, .f32⟩
  | .hbm, ⟨1, _⟩ => ⟨S1024x512, .f32⟩
  | .hbm, ⟨2, _⟩ => ⟨S32768x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x1024, .f32⟩
  | .local _ .vmem, ⟨4, _⟩ => ⟨S1024x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  reduces_S1024x512_S1024 : S1024x512.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x512 : Shape := ⟨2, ![1024, 512]⟩
abbrev S_ : Shape := ⟨0, ![]⟩
abbrev S32768 : Shape := ⟨1, ![32768]⟩
abbrev S32768x1 : Shape := ⟨2, ![32768, 1]⟩
abbrev S1024 : Shape := ⟨1, ![1024]⟩
abbrev S512x1024 : Shape := ⟨2, ![512, 1024]⟩
abbrev S32768x1024 : Shape := ⟨2, ![32768, 1024]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S1024x512, .f32⟩
  | .hbm, ⟨2, _⟩ => ⟨S32768x512, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S512x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S32768x1024, .f32⟩
  | .hbm, ⟨26, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S1024x512_S1024_d1 : S1024x512.ReducesTo [1] S1024
  transposes_S1024x512_S512x1024_1_0 : S1024x512.Transposes [1, 0] S512x1024
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S32768x1024_S32768_d1 : S32768x1024.ReducesTo [1] S32768
  dot_S32768x512_S512x1024_S32768x1024_1_0_0_1_n_n_wf : DotDims.WF S32768x512 S512x1024 S32768x1024 [1] [0] [0] [1] [] []

variable [Facts₀]

def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf

class Facts : Prop extends Facts₀ where

variable [Facts]
-- ==== Proof.Membership.lean ====
/-
  Fuzzy cluster memberships with fuzzifier two, as one function of a feature row and the table of centres.

  For a row `x` of 512 reals and 1024 centres `c k`, the squared Euclidean distance to centre `k` is taken in its
  expanded form  |x|² − 2·⟨x, c k⟩ + |c k|²  (three sums over the 512 coordinates, combined in exactly this order),
  the weight of centre `k` is its reciprocal, and the membership of `x` in cluster `k` is that weight divided by the
  sum of the weights of all 1024 centres.  Everything is read on the extended reals: the quotient is the total
  quotient `Ideal.div` (a zero divisor gives ±∞ by the sign of the dividend), sums and products are the extended
  reals' own.  Nothing here is rearranged, so no finiteness is ever needed: both programs compute this very
  expression, coordinate by coordinate.  The two constants are the values of the f32 words of 2.0 and 1.0; the same two
  words occur in both programs, so the equality holds whatever they denote.
-/
import Idealize.ShloMosaic.PureOps.Ideal
import Idealize.ShloMosaic.Lib.ValueIdx

noncomputable section

open scoped BigOperators

namespace Cert.Membership

open Idealize.ShloMosaic Idealize.ShloMosaic.ValueIdx

/-- The factor of the mixed term, the f32 word of `2.0`. -/
def two : EReal := Ideal.ofBits .f32 0x40000000#32

/-- The dividend of a weight, the f32 word of `1.0`. -/
def one : EReal := Ideal.ofBits .f32 0x3F800000#32

/-- The squared distance from the row `x` to centre `k`, expanded: (|x|² − 2·⟨x, c k⟩) + |c k|². -/
def sqDist (x : Fin 512 → EReal) (c : Fin 1024 → Fin 512 → EReal) (k : Fin 1024) : EReal :=
  (∑ d : Fin 512, x d * x d) - two * (∑ d : Fin 512, x d * c k d) + ∑ d : Fin 512, c k d * c k d

/-- The weight of centre `k` for the row `x`: the reciprocal of the squared distance. -/
def weight (x : Fin 512 → EReal) (c : Fin 1024 → Fin 512 → EReal) (k : Fin 1024) : EReal :=
  Ideal.div one (sqDist x c k)

/-- The membership of the row `x` in cluster `k`: its weight over the sum of the weights of all centres. -/
def member (x : Fin 512 → EReal) (c : Fin 1024 → Fin 512 → EReal) (k : Fin 1024) : EReal :=
  Ideal.div (weight x c k) (∑ k' : Fin 1024, weight x c k')

/-- Row `r` of an array of `n` rows of 512 entries. -/
def row {n : Nat} (X : (⟨2, ![n, 512]⟩ : Shape).Idx → EReal) (r : Fin n) : Fin 512 → EReal :=
  fun d => X (ix2 r d)

/-- The membership table of `n` feature rows against the 1024 centres: entry (r, k) is the membership of row `r` of the
    features in cluster `k`; it depends on that one feature row and on all the centres. -/
def table {n : Nat} (X : (⟨2, ![n, 512]⟩ : Shape).Idx → EReal) (C : (⟨2, ![1024, 512]⟩ : Shape).Idx → EReal) :
    (⟨2, ![n, 1024]⟩ : Shape).Idx → EReal :=
  fun i => member (row X ⟨(i 0).val, idx2_lt0 i⟩) (row C) ⟨(i 1).val, idx2_lt1 i⟩

/-- The table at the entry of coordinates (r, k). -/
theorem table_apply {n : Nat} (X : (⟨2, ![n, 512]⟩ : Shape).Idx → EReal) (C : (⟨2, ![1024, 512]⟩ : Shape).Idx → EReal)
    (r : Fin n) (k : Fin 1024) : table X C (ix2 r k) = member (row X r) (row C) k := rfl

end Cert.Membership

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.KernelPayload.lean ====
/-
  What the kernel body stores, read at one entry.

  From a block `x0` of 1024 feature rows and the block `x1` of all 1024 centres the body forms the matrix product
  of `x0` with the transpose of `x1` (both narrowed to bf16 on the way in, which changes nothing on the extended
  reals, and accumulated from the zero word, the extended real 0), the squared norms of the rows of `x0` as a column
  and of the rows of `x1` as a row, combines them as (|x|² − 2·⟨x, c⟩) + |c|², takes reciprocals, sums each row of the
  reciprocals over its 1024 columns and divides.  At (p, q) that is the membership of row `p` of `x0` in cluster `q`
  among the centres `x1`: the matrix product at (p, q) is the sum over d of x0 (p, d) · x1 (q, d), a lane sum is the sum
  over the second coordinate, and a repeated column or row reads its one value.
-/
import proofs.«171492_j12223476924713_1_alg».proof.Proof.Gen.KernelIdeal.Skeleton
import proofs.«171492_j12223476924713_1_alg».proof.Proof.Membership
import proofs.«171492_j12223476924713_1_alg».proof.Proof.LibRowOps
import Idealize.ShloMosaic.Lib.ValueIdx
import Idealize.ShloMosaic.PureOps.Ideal.Laws

noncomputable section

open scoped BigOperators

namespace Cert.KernelPayload

open Idealize.ShloMosaic Idealize.ShloMosaic.ValueIdx Cert.KernelIdeal Cert.KernelIdeal.Gen Cert.Membership Cert.RowOps

/-- The contraction of the body's matrix product: both operands are [1024, 512], contracted over their second axis. -/
abbrev contraction := dot_S1024x512_S1024x512_S1024x1024_1_1_0_0_n_n

/-- The left operand is read at the output's row … -/
theorem lhs_row (i : S1024x1024.Idx) (k : contraction.contr.Idx) : (contraction.lhsIdx i k 0).val = (i 0).val := by
  unfold DotDims.lhsIdx
  rw [dif_neg (show ¬(0 : Fin S1024x512.rank) ∈ contraction.lhsBatch by decide),
    dif_pos (show (0 : Fin S1024x512.rank) ∈ contraction.lhsNonContracting by decide)]
  rfl
/-- … and at the contracted coordinate; -/
theorem lhs_col (i : S1024x1024.Idx) (k : contraction.contr.Idx) : (contraction.lhsIdx i k 1).val = (k ⟨0, by decide⟩).val :=
  contraction.lhsIdx_val_of_single rfl i k
/-- the right operand is read at the output's COLUMN (the product is with the transpose) … -/
theorem rhs_row (i : S1024x1024.Idx) (k : contraction.contr.Idx) : (contraction.rhsIdx i k 0).val = (i 1).val := by
  unfold DotDims.rhsIdx
  rw [dif_neg (show ¬(0 : Fin S1024x512.rank) ∈ contraction.rhsBatch by decide),
    dif_pos (show (0 : Fin S1024x512.rank) ∈ contraction.rhsNonContracting by decide)]
  rfl
/-- … and at the contracted coordinate. -/
theorem rhs_col (i : S1024x1024.Idx) (k : contraction.contr.Idx) : (contraction.rhsIdx i k 1).val = (k ⟨0, by decide⟩).val :=
  contraction.rhsIdx_val_of_single rfl i k

/-- The matrix product accumulated from zero, at (p, q): the sum over the 512 contracted coordinates of
    left (p, d) times right (q, d). -/
theorem product_apply (l r : FVec Ideal S1024x512 .bf16) (p q : Fin 1024) :
    matmul contraction none l r (constant (F := Ideal) S1024x1024 .f32 0x00000000#32) (ix2 p q)
      = ∑ d : Fin 512, l (ix2 p d) * r (ix2 q d) := by
  simp only [matmul]
  rw [Ideal.matmul_constant_zero_apply, ← Equiv.sum_comp (contrEquiv1 contraction 512 rfl rfl).symm]
  refine Finset.sum_congr rfl fun d _ => ?_
  have hd := contrEquiv1_symm_val contraction 512 rfl rfl d
  have el : contraction.lhsIdx (ix2 p q) ((contrEquiv1 contraction 512 rfl rfl).symm d) = ix2 p d :=
    funext fun a => Fin.ext (by
      match a with
      | ⟨0, _⟩ => exact lhs_row _ _
      | ⟨1, _⟩ => exact (lhs_col _ _).trans hd)
  have er : contraction.rhsIdx (ix2 p q) ((contrEquiv1 contraction 512 rfl rfl).symm d) = ix2 q d :=
    funext fun a => Fin.ext (by
      match a with
      | ⟨0, _⟩ => exact rhs_row _ _
      | ⟨1, _⟩ => exact (rhs_col _ _).trans hd)
  rw [el, er]

/-- The stored value at (p, q) is the membership of row `p` of the feature block in cluster `q` of the centres. -/
theorem payload_apply (x0 x1 : Vec Ideal S1024x512 .f32) (p q : Fin 1024) :
    k0_pay1 (F := Ideal) x0 x1 (ix2 p q) = member (row x0 p) (row x1) q := by
  have features_norm := fun r : Fin 1024 =>
    sum_over_columns_apply (mulf x0 x0) Gen.reduces_S1024x512_S1024 (Or.inl rfl) rfl r
  have centres_norm := fun k : Fin 1024 =>
    sum_over_columns_apply (mulf x1 x1) Gen.reduces_S1024x512_S1024 (Or.inl rfl) rfl k
  have weights_sum := fun (w : FVec Ideal S1024x1024 .f32) (r : Fin 1024) =>
    sum_over_columns_apply w Gen.reduces_S1024x1024_S1024 (Or.inl rfl) rfl r
  unfold k0_pay1
  simp only [divf_apply, addf_apply, subf_apply, mulf_apply, broadcast_apply, truncf_apply, column_repeated_apply,
    row_repeated_apply, product_apply, features_norm, centres_norm, weights_sum]
  rfl

end Cert.KernelPayload

end
-- ==== Proof.KernelValue.lean ====
/-
  The kernel's result array is the membership table.

  The grid has 32 points.  Point `t` works on the block of feature rows 1024·t … 1024·t + 1023 (all 512 columns), on the
  whole array of centres (the same block at every point), and writes back the block of result rows
  1024·t … 1024·t + 1023 (all 1024 columns).  A result entry (r, k) depends on feature row `r` alone and on all the
  centres, and both are inside what the point t = r / 1024 has before it; so what that point writes back is the
  membership table restricted to its rows.  The 32 row blocks cover the result array, so after the run the array is the
  table.
-/
import proofs.«171492_j12223476924713_1_alg».proof.Proof.Gen.KernelIdeal.Value
import proofs.«171492_j12223476924713_1_alg».proof.Proof.KernelPayload
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.Membership

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at each of the 32 grid points: the features and the result move down one block of rows per
    point, the centres stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of 1024 feature rows starting at row 1024·t, with all the centres, gives at its entry (p, q) the table's
    entry (1024·t + p, q). -/
theorem block_value (X : S32768x512.Idx → EReal) (C : S1024x512.Idx → EReal) (x0 x1 : Vec Ideal S1024x512 .f32) (t : ℕ)
    (h0 : ∀ (p : Fin 1024) (d : Fin 512) (r : Fin 32768), r.val = 1024 * t + p.val → x0 (ix2 p d) = X (ix2 r d))
    (h1 : ∀ (k : Fin 1024) (d : Fin 512), x1 (ix2 k d) = C (ix2 k d))
    (j : S1024x1024.Idx) (i : S32768x1024.Idx) (hi0 : (i 0).val = 1024 * t + (j 0).val) (hi1 : (i 1).val = (j 1).val) :
    k0_pay1 (F := Ideal) x0 x1 j = table X C i := by
  obtain ⟨p, q, rfl⟩ : ∃ (p : Fin 1024) (q : Fin 1024), j = ix2 p q := ⟨j 0, j 1, eq_ix2 j⟩
  obtain ⟨r, k, rfl⟩ : ∃ (r : Fin 32768) (k : Fin 1024), i = ix2 r k := ⟨i 0, i 1, eq_ix2 i⟩
  obtain rfl : k = q := Fin.ext hi1
  rw [KernelPayload.payload_apply, table_apply]
  have e0 : row x0 p = row X r := funext fun d => h0 p d r hi0
  have e1 : row x1 = row C := funext fun k => funext fun d => h1 k d
  rw [e0, e1]

/-- The membership table of the argument arrays as the run finds them. -/
abbrev result (c : Dev nD) : Buf (Elt Ideal) ((c : Thread nD τ).loc main_v0) :=
  table (n := 32768) (m ((c : Thread nD τ).loc main_arg0) : S32768x512.Idx → EReal)
    (m ((c : Thread nD τ).loc main_arg1) : S1024x512.Idx → EReal)

/-- What point `t` writes back is its block of rows of the table. -/
theorem flushed_eq (c : Dev nD) (t : Fin cfg0.N) :
    (dats m 0 c).flushed 2 t = ((cfg0.win 2).blk t).view.read (Elt Ideal) (result m c) := by
  rw [Cert.KernelIdeal.Value.flushed2]
  unfold out0_2
  rw [View.canon_unit_zero zero_offsets]
  simp only [View.ld_unit_zero (S := S1024x512) zero_offsets]
  obtain ⟨e0, e1, e2, e3, e4, e5⟩ := block_indices t
  funext j
  refine block_value (m ((c : Thread nD τ).loc main_arg0)) (m ((c : Thread nD τ).loc main_arg1)) (iblk m c 0 t) (iblk m c 1 t)
    t.val ?_ ?_ j (((cfg0.win 2).blk t).view.emb j) ?_ ?_
  · intro p d r hr
    show V m c main_arg0 (((cfg0.win 0).blk t).view.emb (ix2 p d)) = V m c main_arg0 (ix2 r d)
    refine congrArg (V m c main_arg0) (funext fun a => Fin.ext ?_)
    match a with
    | ⟨0, _⟩ => show win0_0.index t (0 : Fin 2) * 1024 + 1 * p.val = r.val; omega
    | ⟨1, _⟩ => show win0_0.index t (1 : Fin 2) * 512 + 1 * d.val = d.val; omega
  · intro k d
    show V m c main_arg1 (((cfg0.win 1).blk t).view.emb (ix2 k d)) = V m c main_arg1 (ix2 k d)
    refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 512 + 1 * d.val = d.val; omega
  · show win0_2.index t (0 : Fin 2) * 1024 + 1 * (j 0).val = 1024 * t.val + (j 0).val; omega
  · show win0_2.index t (1 : Fin 2) * 1024 + 1 * (j 1).val = (j 1).val; omega

/-- An entry of the result array is in point `t`'s block iff each coordinate is in the block's range on its axis. -/
theorem mem_block (t : Fin cfg0.N) (i : S32768x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every entry (r, k) of the result array lies in the block of the point r / 1024, which writes back. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  have hN : cfg0.N = 32 := N_0
  let t : Fin cfg0.N := ⟨(i 0).val / 1024, by rw [hN]; omega⟩
  have ht : t.val = (i 0).val / 1024 := rfl
  obtain ⟨-, -, -, -, e4, e5⟩ := block_indices t
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- After the run the result array is the membership table. -/
theorem final (c : Dev nD) : (dats m 0 c).arrAt 2 cfg0.N = result m c :=
  (dats m 0 c).arrAt_eq_of_cover 2 (result m c) (fun t _ => flushed_eq m c t) covered

/-- The kernel's run, read: the result array ends at the membership table of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelValue

end
-- ==== Proof.ReferenceValue.lean ====
/-
  The reference program's result is the membership table.

  Read one operation at a time at the entry (r, k): the two squared norms are sums over the 512 coordinates of row r
  of the features and of row k of the centres (each started from the zero word, which is the extended real 0), the
  product with the transposed centres is the sum over d of features (r, d) times centres (k, d), the three are
  combined as (|x|² − 2·⟨x, c⟩) + |c|², the weight is the reciprocal, and the last quotient divides the weight by the
  sum of the weights of row r over all 1024 centres.  That is `Membership.table` term for term.
-/
import proofs.«171492_j12223476924713_1_alg».proof.Proof.Gen.ReferenceIdeal.Read
import proofs.«171492_j12223476924713_1_alg».proof.Proof.Membership

noncomputable section

open scoped BigOperators

namespace Cert.ReferenceValue

open Idealize.ShloMosaic Idealize.ShloMosaic.ValueIdx Cert.ReferenceIdeal Cert.ReferenceIdeal.Read Cert.Membership

variable (X : (⟨S32768x512, .f32⟩ : BufTy).Contents (Elt Ideal)) (C : (⟨S1024x512, .f32⟩ : BufTy).Contents (Elt Ideal))

/-- The squared norm of feature row `r`, repeated along the 1024 columns. -/
theorem features_norm_apply (r : Fin 32768) (k : Fin 1024) :
    val_main_v9 (F := Ideal) X (ix2 r k) = ∑ d : Fin 512, row X r d * row X r d := by
  rw [val_main_v9_apply, val_main_v2_apply, val_main_v1_apply]
  show Ideal.ofBits .f32 0x00000000#32 + _ = _
  rw [Ideal.ofBits_zero_f32, zero_add]
  refine Finset.sum_congr rfl fun d _ => ?_
  have e : idx_main_v1 (idx_main_v2 (idx_main_v9 (ix2 r k))) d = ix2 r d :=
    funext fun a => Fin.ext (by match a with | ⟨0, _⟩ => rfl | ⟨1, _⟩ => rfl)
  rw [val_main_v0_apply, e]
  rfl

/-- The squared norm of centre `k`, repeated along the 32768 rows. -/
theorem centres_norm_apply (r : Fin 32768) (k : Fin 1024) :
    val_main_v12 (F := Ideal) C (ix2 r k) = ∑ d : Fin 512, row C k d * row C k d := by
  rw [val_main_v12_apply, val_main_v11_apply, val_main_v4_apply]
  show Ideal.ofBits .f32 0x00000000#32 + _ = _
  rw [Ideal.ofBits_zero_f32, zero_add]
  refine Finset.sum_congr rfl fun d _ => ?_
  have e : idx_main_v4 (idx_main_v11 (idx_main_v12 (ix2 r k))) d = ix2 k d :=
    funext fun a => Fin.ext (by match a with | ⟨0, _⟩ => rfl | ⟨1, _⟩ => rfl)
  rw [val_main_v3_apply, e]
  rfl

/-- The product of the features with the transposed centres: at (r, k) the inner product of feature row `r` and centre `k`. -/
theorem inner_apply (r : Fin 32768) (k : Fin 1024) :
    val_main_v6 (F := Ideal) X C (ix2 r k) = ∑ d : Fin 512, row X r d * row C k d := by
  rw [val_main_v6_apply]
  refine Finset.sum_congr rfl fun d _ => ?_
  have el : lidx_main_v6 (ix2 r k) d = ix2 r d :=
    funext fun a => Fin.ext (by match a with | ⟨0, _⟩ => rfl | ⟨1, _⟩ => rfl)
  have er : idx_main_v5 (ridx_main_v6 (ix2 r k) d) = ix2 k d :=
    funext fun a => Fin.ext (by match a with | ⟨0, _⟩ => rfl | ⟨1, _⟩ => rfl)
  rw [val_main_v5_apply, el, er]
  rfl

/-- The reciprocal of the expanded squared distance: at (r, k) the weight of centre `k` for feature row `r`. -/
theorem weight_apply (r : Fin 32768) (k : Fin 1024) :
    val_main_v15 (F := Ideal) X C (ix2 r k) = weight (row X r) (row C) k := by
  rw [val_main_v15_apply, val_main_v13_apply, val_main_v10_apply, val_main_v8_apply, features_norm_apply, centres_norm_apply,
    inner_apply, val_main_v14_apply, val_main_v7_apply]
  rfl

/-- The reference's result, as one function of its two arguments, is the membership table. -/
theorem result_eq : val_main_v19 (F := Ideal) X C = table X C := by
  funext i
  obtain ⟨r, k, rfl⟩ : ∃ (r : Fin 32768) (k : Fin 1024), i = ix2 r k := ⟨i 0, i 1, eq_ix2 i⟩
  rw [val_main_v19_apply, val_main_v18_apply, val_main_v17_apply, val_main_v16_apply, weight_apply, table_apply]
  show Ideal.div _ (Ideal.ofBits .f32 0x00000000#32 + _) = _
  rw [Ideal.ofBits_zero_f32, zero_add]
  unfold member
  refine congrArg (Ideal.div _) (Finset.sum_congr rfl fun k' _ => ?_)
  have e : idx_main_v16 (idx_main_v17 (idx_main_v18 (ix2 r k))) k' = ix2 r k' :=
    funext fun a => Fin.ext (by match a with | ⟨0, _⟩ => rfl | ⟨1, _⟩ => rfl)
  rw [e, weight_apply]

end Cert.ReferenceValue

end
-- ==== Proof.lean ====
/-
  The certificate: a kernel that computes fuzzy cluster memberships (fuzzifier two) of 32768 feature rows against 1024
  centres, block of 1024 rows by block, against the plain array program.

  Both programs compute, for the entry (r, k), the reciprocal of the squared distance from feature row r to centre k —
  taken in the expanded form (|x|² − 2·⟨x, c⟩) + |c|² — divided by the sum of those reciprocals over all the centres.
  On the extended reals the two are the same expression, operation for operation: the kernel's narrowing of the matrix
  product's operands to bf16 is the identity there, its matrix product accumulated from zero and the reference's
  product with the transposed centres are the same sum over the 512 coordinates, and a lane sum and the reference's
  sum started from zero are the same sum.  No law of arithmetic is used, so the inputs' finiteness is never opened.
  The kernel side (`KernelValue.run`) reads each written-back block of rows as rows of the table (`Membership.table`)
  and covers the result array by the 32 blocks; the reference side (`ReferenceValue.result_eq`) reads the program's
  operations one by one at an entry.  The idealization rewrote nothing, so `preserves` is trivial.
-/
import proofs.«171492_j12223476924713_1_alg».proof.Defs
import proofs.«171492_j12223476924713_1_alg».proof.Proof.Gen.Kernel
import proofs.«171492_j12223476924713_1_alg».proof.Proof.Gen.Kernel.Frame
import proofs.«171492_j12223476924713_1_alg».proof.Proof.Gen.KernelIdeal
import proofs.«171492_j12223476924713_1_alg».proof.Proof.Gen.KernelIdeal.Frame
import proofs.«171492_j12223476924713_1_alg».proof.Proof.Gen.KernelIdeal.Value
import proofs.«171492_j12223476924713_1_alg».proof.Proof.Gen.ReferenceIdeal
import proofs.«171492_j12223476924713_1_alg».proof.Proof.Gen.ReferenceIdeal.Run
import proofs.«171492_j12223476924713_1_alg».proof.Proof.Gen.ReferenceIdeal.Read
import proofs.«171492_j12223476924713_1_alg».proof.Proof.Gen.Pre_finite_inputs
import proofs.«171492_j12223476924713_1_alg».proof.Proof.KernelValue
import proofs.«171492_j12223476924713_1_alg».proof.Proof.ReferenceValue

noncomputable section

namespace Cert.Proof

open Idealize.ShloMosaic Idealize.SL.Sem

/-- The three programs run, nothing faults, and the arguments end unchanged: the two kernels by their generated frames,
    the reference by its generated run with the result dropped. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the features and the centres, both programs end with the membership table of those
    arguments in their result array. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
